-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S32x128x32x128 : Shape := ⟨4, ![32, 128, 32, 128]⟩
abbrev S_ : Shape := ⟨0, ![]⟩
abbrev S32x32 : Shape := ⟨2, ![32, 32]⟩
abbrev S32x1x32x1 : Shape := ⟨4, ![32, 1, 32, 1]⟩
abbrev S8192x32x128 : Shape := ⟨3, ![8192, 32, 128]⟩
abbrev S8192x32 : Shape := ⟨2, ![8192, 32]⟩
abbrev S8192x32x1 : Shape := ⟨3, ![8192, 32, 1]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 59
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S32x128x32x128, .f32⟩
  | .hbm, ⟨4, _⟩ => ⟨S32x128x32x128, .f32⟩
  | .hbm, ⟨5, _⟩ => ⟨S_, .f32⟩
  | .hbm, ⟨6, _⟩ => ⟨S32x32, .f32⟩
  | .hbm, ⟨7, _⟩ => ⟨S_, .f32⟩
  | .hbm, ⟨8, _⟩ => ⟨S32x32, .f32⟩
  | .hbm, ⟨9, _⟩ => ⟨S32x32, .f32⟩
  | .hbm, ⟨10, _⟩ => ⟨S_, .f32⟩
  | .hbm, ⟨11, _⟩ => ⟨S32x32, .f32⟩
  | .hbm, ⟨12, _⟩ => ⟨S32x32, .f32⟩
  | .hbm, ⟨13, _⟩ => ⟨S32x1x32x1, .f32⟩
  | .hbm, ⟨14, _⟩ => ⟨S32x128x32x128, .f32⟩
  | .hbm, ⟨15, _⟩ => ⟨S32x128x32x128, .f32⟩
  | .hbm, ⟨16, _⟩ => ⟨S32x128x32x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S32x128x32x128, .f32⟩
  | .hbm, ⟨21, _⟩ => ⟨S32x128x32x128, .f32⟩
  | .hbm, ⟨22, _⟩ => ⟨S_, .f32⟩
  | .hbm, ⟨23, _⟩ => ⟨S32x128x32x128, .f32⟩
  | .hbm, ⟨24, _⟩ => ⟨S32x128x32x128, .f32⟩
  | .hbm, ⟨25, _⟩ => ⟨S8192x32x128, .f32⟩
  | .hbm, ⟨26, _⟩ => ⟨S8192x32x128, .f32⟩
  | .hbm, ⟨27, _⟩ => ⟨S_, .f32⟩
  | .hbm, ⟨28, _⟩ => ⟨S8192x32, .f32⟩
  | .hbm, ⟨29, _⟩ => ⟨S_, .f32⟩
  | .hbm, ⟨30, _⟩ => ⟨S8192x32, .f32⟩
  | .hbm, ⟨31, _⟩ => ⟨S8192x32, .f32⟩
  | .hbm, ⟨32, _⟩ => ⟨S_, .f32⟩
  | .hbm, ⟨33, _⟩ => ⟨S8192x32, .f32⟩
  | .hbm, ⟨34, _⟩ => ⟨S8192x32, .f32⟩
  | .hbm, ⟨35, _⟩ => ⟨S8192x32x1, .f32⟩
  | .hbm, ⟨36, _⟩ => ⟨S8192x32x128, .f32⟩
  | .hbm, ⟨37, _⟩ => ⟨S8192x32x128, .f32⟩
  | .hbm, ⟨38, _⟩ => ⟨S8192x32x128, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192x32x128, .f32⟩
  | .hbm, ⟨43, _⟩ => ⟨S8192x32x128, .f32⟩
  | .hbm, ⟨44, _⟩ => ⟨S_, .f32⟩
  | .hbm, ⟨45, _⟩ => ⟨S8192x32x128, .f32⟩
  | .hbm, ⟨46, _⟩ => ⟨S8192x32x128, .f32⟩
  | .hbm, ⟨47, _⟩ => ⟨S8192x32x1, .f32⟩
  | .hbm, ⟨48, _⟩ => ⟨S8192x32x128, .f32⟩
  | .hbm, ⟨49, _⟩ => ⟨S8192x32x128, .f32⟩
  | .hbm, ⟨50, _⟩ => ⟨S8192x4096, .f32⟩
  | .hbm, ⟨51, _⟩ => ⟨S8192x4096, .bf16⟩
  | .hbm, ⟨52, _⟩ => ⟨S32x1x32x1, .f32⟩
  | .hbm, ⟨53, _⟩ => ⟨S32x128x32x128, .f32⟩
  | .hbm, ⟨54, _⟩ => ⟨S32x128x32x128, .f32⟩
  | .hbm, ⟨55, _⟩ => ⟨S4096x4096, .f32⟩
  | .hbm, ⟨56, _⟩ => ⟨S4096x4096, .bf16⟩
  | .hbm, ⟨57, _⟩ => ⟨S1x4096, .f32⟩
  | .hbm, ⟨58, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_cst_8 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096x4096_S32x128x32x128 : S4096x4096.ShapeCasts S32x128x32x128
  reducesTo_S32x128x32x128_S32x32_d1_3 : S32x128x32x128.ReducesTo [1, 3] S32x32
  h_S_ : 0 < S_.numel
  bcast_S_S32x32 : S_.BroadcastsInDim S32x32 (![] : Fin 0 → Fin S32x32.rank)
  bcast_S32x32_S32x1x32x1_0_2 : S32x32.BroadcastsInDim S32x1x32x1 (![0, 2] : Fin 2 → Fin S32x1x32x1.rank)
  bcast_S32x1x32x1_S32x128x32x128_0_1_2_3 : S32x1x32x1.BroadcastsInDim S32x128x32x128 (![0, 1, 2, 3] : Fin 4 → Fin S32x128x32x128.rank)
  bcast_S_S32x128x32x128 : S_.BroadcastsInDim S32x128x32x128 (![] : Fin 0 → Fin S32x128x32x128.rank)
  shapeCasts_S8192x4096_S8192x32x128 : S8192x4096.ShapeCasts S8192x32x128
  reducesTo_S8192x32x128_S8192x32_d2 : S8192x32x128.ReducesTo [2] S8192x32
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  bcast_S8192x32x1_S8192x32x128_0_1_2 : S8192x32x1.BroadcastsInDim S8192x32x128 (![0, 1, 2] : Fin 3 → Fin S8192x32x128.rank)
  bcast_S_S8192x32x128 : S_.BroadcastsInDim S8192x32x128 (![] : Fin 0 → Fin S8192x32x128.rank)
  shapeCasts_S8192x32x128_S8192x4096 : S8192x32x128.ShapeCasts S8192x4096
  bitsLt_bf16_f32 : FTy.bits .bf16 < FTy.bits .f32
  shapeCasts_S32x128x32x128_S4096x4096 : S32x128x32x128.ShapeCasts S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v28) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S32x128x32x128 : Shape := ⟨4, ![32, 128, 32, 128]⟩
abbrev S_ : Shape := ⟨0, ![]⟩
abbrev S32x32 : Shape := ⟨2, ![32, 32]⟩
abbrev S32x1x32x1 : Shape := ⟨4, ![32, 1, 32, 1]⟩
abbrev S8192x32x128 : Shape := ⟨3, ![8192, 32, 128]⟩
abbrev S8192x32 : Shape := ⟨2, ![8192, 32]⟩
abbrev S8192x32x1 : Shape := ⟨3, ![8192, 32, 1]⟩
abbrev S1x4096 : Shape := ⟨2, ![1, 4096]⟩

abbrev nBuf : Space → Nat
  | .hbm => 60
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S32x128x32x128, .f32⟩
  | .hbm, ⟨4, _⟩ => ⟨S32x128x32x128, .f32⟩
  | .hbm, ⟨5, _⟩ => ⟨S_, .f32⟩
  | .hbm, ⟨6, _⟩ => ⟨S32x32, .f32⟩
  | .hbm, ⟨7, _⟩ => ⟨S_, .f32⟩
  | .hbm, ⟨8, _⟩ => ⟨S32x32, .f32⟩
  | .hbm, ⟨9, _⟩ => ⟨S32x32, .f32⟩
  | .hbm, ⟨10, _⟩ => ⟨S_, .f32⟩
  | .hbm, ⟨11, _⟩ => ⟨S32x32, .f32⟩
  | .hbm, ⟨12, _⟩ => ⟨S32x32, .f32⟩
  | .hbm, ⟨13, _⟩ => ⟨S32x1x32x1, .f32⟩
  | .hbm, ⟨14, _⟩ => ⟨S32x128x32x128, .f32⟩
  | .hbm, ⟨15, _⟩ => ⟨S32x128x32x128, .f32⟩
  | .hbm, ⟨16, _⟩ => ⟨S32x128x32x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S32x128x32x128, .f32⟩
  | .hbm, ⟨21, _⟩ => ⟨S32x128x32x128, .f32⟩
  | .hbm, ⟨22, _⟩ => ⟨S_, .f32⟩
  | .hbm, ⟨23, _⟩ => ⟨S32x128x32x128, .f32⟩
  | .hbm, ⟨24, _⟩ => ⟨S32x128x32x128, .f32⟩
  | .hbm, ⟨25, _⟩ => ⟨S8192x32x128, .f32⟩
  | .hbm, ⟨26, _⟩ => ⟨S8192x32x128, .f32⟩
  | .hbm, ⟨27, _⟩ => ⟨S_, .f32⟩
  | .hbm, ⟨28, _⟩ => ⟨S8192x32, .f32⟩
  | .hbm, ⟨29, _⟩ => ⟨S_, .f32⟩
  | .hbm, ⟨30, _⟩ => ⟨S8192x32, .f32⟩
  | .hbm, ⟨31, _⟩ => ⟨S8192x32, .f32⟩
  | .hbm, ⟨32, _⟩ => ⟨S_, .f32⟩
  | .hbm, ⟨33, _⟩ => ⟨S8192x32, .f32⟩
  | .hbm, ⟨34, _⟩ => ⟨S8192x32, .f32⟩
  | .hbm, ⟨35, _⟩ => ⟨S8192x32x1, .f32⟩
  | .hbm, ⟨36, _⟩ => ⟨S8192x32x128, .f32⟩
  | .hbm, ⟨37, _⟩ => ⟨S8192x32x128, .f32⟩
  | .hbm, ⟨38, _⟩ => ⟨S8192x32x128, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192x32x128, .f32⟩
  | .hbm, ⟨43, _⟩ => ⟨S8192x32x128, .f32⟩
  | .hbm, ⟨44, _⟩ => ⟨S_, .f32⟩
  | .hbm, ⟨45, _⟩ => ⟨S8192x32x128, .f32⟩
  | .hbm, ⟨46, _⟩ => ⟨S8192x32x128, .f32⟩
  | .hbm, ⟨47, _⟩ => ⟨S8192x32x1, .f32⟩
  | .hbm, ⟨48, _⟩ => ⟨S8192x32x128, .f32⟩
  | .hbm, ⟨49, _⟩ => ⟨S8192x32x128, .f32⟩
  | .hbm, ⟨50, _⟩ => ⟨S8192x4096, .f32⟩
  | .hbm, ⟨51, _⟩ => ⟨S32x1x32x1, .f32⟩
  | .hbm, ⟨52, _⟩ => ⟨S32x128x32x128, .f32⟩
  | .hbm, ⟨53, _⟩ => ⟨S32x128x32x128, .f32⟩
  | .hbm, ⟨54, _⟩ => ⟨S4096x4096, .f32⟩
  | .hbm, ⟨55, _⟩ => ⟨S4096x4096, .f32⟩
  | .hbm, ⟨56, _⟩ => ⟨S8192x4096, .f32⟩
  | .hbm, ⟨57, _⟩ => ⟨S1x4096, .f32⟩
  | .hbm, ⟨58, _⟩ => ⟨S8192x4096, .f32⟩
  | .hbm, ⟨59, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_cst_8 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩

abbrev nD : Nat := 1
abbrev τ : Topo := Topo.v7x

variable {F : FTy → Type} [FloatOps F]

class Facts₀ : Prop where
  shapeCasts_S4096x4096_S32x128x32x128 : S4096x4096.ShapeCasts S32x128x32x128
  reducesTo_S32x128x32x128_S32x32_d1_3 : S32x128x32x128.ReducesTo [1, 3] S32x32
  h_S_ : 0 < S_.numel
  bcast_S_S32x32 : S_.BroadcastsInDim S32x32 (![] : Fin 0 → Fin S32x32.rank)
  bcast_S32x32_S32x1x32x1_0_2 : S32x32.BroadcastsInDim S32x1x32x1 (![0, 2] : Fin 2 → Fin S32x1x32x1.rank)
  bcast_S32x1x32x1_S32x128x32x128_0_1_2_3 : S32x1x32x1.BroadcastsInDim S32x128x32x128 (![0, 1, 2, 3] : Fin 4 → Fin S32x128x32x128.rank)
  bcast_S_S32x128x32x128 : S_.BroadcastsInDim S32x128x32x128 (![] : Fin 0 → Fin S32x128x32x128.rank)
  shapeCasts_S8192x4096_S8192x32x128 : S8192x4096.ShapeCasts S8192x32x128
  reducesTo_S8192x32x128_S8192x32_d2 : S8192x32x128.ReducesTo [2] S8192x32
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  bcast_S8192x32x1_S8192x32x128_0_1_2 : S8192x32x1.BroadcastsInDim S8192x32x128 (![0, 1, 2] : Fin 3 → Fin S8192x32x128.rank)
  bcast_S_S8192x32x128 : S_.BroadcastsInDim S8192x32x128 (![] : Fin 0 → Fin S8192x32x128.rank)
  shapeCasts_S8192x32x128_S8192x4096 : S8192x32x128.ShapeCasts S8192x4096
  shapeCasts_S32x128x32x128_S4096x4096 : S32x128x32x128.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one run of the tiled body leaves behind, as values of what it was given — for any float instance.

  At the first position of the contraction axis the body resets the accumulator and then takes one accumulating step:
  the accumulator ends at the step applied to the reset block (what it held before does not matter). At the second
  position it takes one step from what the first left, and writes the accumulator plus the bias row into the
  output block. Every store and load goes through the whole block, so a load after a store reads the stored value and
  the last store is what the buffer ends holding.
-/
import proofs.«121284_j42554535969583_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First position of the contraction axis: the accumulator ends at one step from the reset block. -/
theorem acc_first (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S1024x2048 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x2048) hz]

/-- Second position: the accumulator ends at one step from what it held (`xs0`). -/
theorem acc_second (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S1024x2048 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S1024x1024) hz]
  simp only [View.readAt_eq_ld, harg3.read_unread, harg4.read_unread, harg7.read_unread,
    View.ld_unit_zero (S := S1024x2048) hz, View.ld_unit_zero (S := S1024x1024) hz]

/-- Second position: the output block ends at that accumulator plus the bias row. -/
theorem out_second (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S1024x2048 .bf16) (x2 : Vec F S1x1024 .f32) (xs0 : Vec F S1024x1024 .f32) :
    out0_B_3 c i arg3 harg3 arg4 harg4 arg5 harg5 arg6 harg6 arg7 harg7 hc0 hc1 x0 x1 x2 xs0 = k0_pay3 (k0_pay2 xs0 x0 x1) x2 := by
  unfold out0_B_3
  rw [View.read_writes_eq_canon _ _ _ (cover0_B_3 c i arg3 harg3 arg4 harg4 arg5 harg5 arg6 harg6 arg7 harg7 hc0 hc1 x0 x1 x2 xs0)]
  unfold kernelRun0_B
  dsimp only
  sl_unfold_words
  rw [View.canon_unit_zero (S := S1024x1024) hz, View.readCov_unit_zero (S := S1024x1024) _ hz]
  simp only [View.readAt_eq_ld, harg3.read_unread, harg4.read_unread, harg5.read_unread, harg7.read_unread,
    View.ld_unit_zero (S := S1024x2048) hz, View.ld_unit_zero (S := S1024x1024) hz, View.ld_unit_zero (S := S1x1024) hz]

end Cert.KernelIdeal.Pieces

end
-- ==== Proof.Payloads.lean ====
/-
  The three values the tiled body stores, read at an index of the 1024 × 1024 block, as extended reals:

    * the block the accumulator is reset to is zero everywhere;
    * one accumulating step leaves, at (p, q), the accumulator's entry plus the product of row `p` of the left block
      with row `q` of the right block over the block's 2048 contraction positions (the right operand is contracted
      along its second axis: the product is against the transpose);
    * the epilogue adds entry `q` of the bias row to every row of the accumulator.
-/
import proofs.«121284_j42554535969583_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-- The reset block is zero at every index. -/
theorem reset_apply (p q : Fin 1024) : k0_pay1 (F := Ideal) (ix2 p q) = 0 := by
  unfold k0_pay1
  rw [shapeCast_self]
  exact Ideal.ofBits_zero_f32

/-- The block product's dimension numbers: both operands contract their second axis. -/
local notation "DD" => dot_S1024x2048_S1024x2048_S1024x1024_1_1_0_0_n_n

theorem lhs0 (j : S1024x1024.Idx) (k : (DD).contr.Idx) : ((DD).lhsIdx j k 0).val = (j 0).val := by
  unfold DotDims.lhsIdx
  rw [dif_neg (show ¬(0 : Fin S1024x2048.rank) ∈ (DD).lhsBatch by decide),
    dif_pos (show (0 : Fin S1024x2048.rank) ∈ (DD).lhsNonContracting by decide)]
  rfl

theorem lhs1 (j : S1024x1024.Idx) (k : (DD).contr.Idx) : ((DD).lhsIdx j k 1).val = (k ⟨0, by decide⟩).val :=
  (DD).lhsIdx_val_of_single rfl j k

theorem rhs0 (j : S1024x1024.Idx) (k : (DD).contr.Idx) : ((DD).rhsIdx j k 0).val = (j 1).val := by
  unfold DotDims.rhsIdx
  rw [dif_neg (show ¬(0 : Fin S1024x2048.rank) ∈ (DD).rhsBatch by decide),
    dif_pos (show (0 : Fin S1024x2048.rank) ∈ (DD).rhsNonContracting by decide)]
  rfl

theorem rhs1 (j : S1024x1024.Idx) (k : (DD).contr.Idx) : ((DD).rhsIdx j k 1).val = (k ⟨0, by decide⟩).val :=
  (DD).rhsIdx_val_of_single rfl j k

/-- One accumulating step at (p, q): the accumulator there plus `∑ k, a[p, k] · b[q, k]` over the block's
    contraction axis. -/
theorem step_apply (acc : Vec Ideal S1024x1024 .f32) (a b : Vec Ideal S1024x2048 .bf16) (p q : Fin 1024) :
    k0_pay2 (F := Ideal) acc a b (ix2 p q) = acc (ix2 p q) + ∑ k : Fin 2048, a (ix2 p k) * b (ix2 q k) := by
  unfold k0_pay2
  simp only [shapeCast_self]
  refine (addf_apply (s := S1024x1024) (φ := .f32) acc _ (ix2 p q)).trans ?_
  refine congrArg (acc (ix2 p q) + ·) ?_
  refine (Ideal.matmul_constant_zero_apply (φ₁ := .bf16) (φ₂ := .bf16) (DD) none a b (ix2 p q)).trans ?_
  rw [← Equiv.sum_comp (contrEquiv1 (DD) 2048 rfl rfl).symm]
  refine Finset.sum_congr rfl fun k _ => ?_
  have hk := contrEquiv1_symm_val (DD) 2048 rfl rfl k
  have el : (DD).lhsIdx (ix2 p q) ((contrEquiv1 (DD) 2048 rfl rfl).symm k) = ix2 p k := funext fun d => Fin.ext (by
    match d with
    | ⟨0, _⟩ => exact lhs0 _ _
    | ⟨1, _⟩ => exact (lhs1 _ _).trans hk)
  have er : (DD).rhsIdx (ix2 p q) ((contrEquiv1 (DD) 2048 rfl rfl).symm k) = ix2 q k := funext fun d => Fin.ext (by
    match d with
    | ⟨0, _⟩ => exact rhs0 _ _
    | ⟨1, _⟩ => exact (rhs1 _ _).trans hk)
  rw [el, er]

/-- The epilogue at (p, q): the accumulator there plus the bias row's entry `q`. -/
theorem bias_apply (acc : Vec Ideal S1024x1024 .f32) (row : Vec Ideal S1x1024 .f32) (p q : Fin 1024) :
    k0_pay3 (F := Ideal) acc row (ix2 p q) = acc (ix2 p q) + row (ix2 (0 : Fin 1) q) := by
  unfold k0_pay3
  simp only [shapeCast_self]
  refine (addf_apply (s := S1024x1024) (φ := .f32) acc _ (ix2 p q)).trans ?_
  refine congrArg (acc (ix2 p q) + ·) ?_
  refine broadcastTo_apply row broadcasts_S1x1024_S1024x1024 (ix2 p q) (ix2 (0 : Fin 1) q) (fun d => ?_)
  match d with
  | ⟨0, _⟩ => rfl
  | ⟨1, _⟩ => rfl

end Cert.KernelIdeal.Payload

end
-- ==== Proof.Spec.lean ====
/-
  The specification. Both programs compute an affine map whose matrix and input are dequantized copies of the
  arguments:

      out[r, c] = (∑ k < 4096, a[r, k] · b[c, k]) + bias[c]            (a : 8192 × 4096, b : 4096 × 4096)

  stated here once, over the two dequantized operands `a` and `b` and the bias, as extended reals. The tiled program
  reaches the sum in two halves of the contraction axis, accumulated into a zero block; that the two halves, added to
  zero in that order, are the whole sum needs only that addition of extended reals is associative and that zero is
  neutral — no finiteness of the entries.
-/
import Idealize.ShloMosaic.PureOps.Ideal
import Idealize.ShloMosaic.Lib.ValueIdx

noncomputable section

namespace Cert.Linear

open Idealize.ShloMosaic Idealize.ShloMosaic.ValueIdx
open scoped BigOperators

/-- The affine map: row `r` of `a` against row `c` of `b`, over the whole contraction axis, plus `bias[c]`. -/
def linear (a : (⟨2, ![8192, 4096]⟩ : Shape).Idx → EReal) (b : (⟨2, ![4096, 4096]⟩ : Shape).Idx → EReal)
    (bias : (⟨1, ![4096]⟩ : Shape).Idx → EReal) : (⟨2, ![8192, 4096]⟩ : Shape).Idx → EReal :=
  fun i => (∑ k : Fin 4096, a (ix2 (i 0) k) * b (ix2 (i 1) k)) + bias (ix1 (i 1))

/-- The same map with the bias laid out as one row of a 1 × 4096 array. -/
def linearRow (a : (⟨2, ![8192, 4096]⟩ : Shape).Idx → EReal) (b : (⟨2, ![4096, 4096]⟩ : Shape).Idx → EReal)
    (row : (⟨2, ![1, 4096]⟩ : Shape).Idx → EReal) : (⟨2, ![8192, 4096]⟩ : Shape).Idx → EReal :=
  fun i => (∑ k : Fin 4096, a (ix2 (i 0) k) * b (ix2 (i 1) k)) + row (ix2 (0 : Fin 1) (i 1))

/-- A row that holds the bias entry by entry gives the same map. -/
theorem linearRow_eq (a : (⟨2, ![8192, 4096]⟩ : Shape).Idx → EReal) (b : (⟨2, ![4096, 4096]⟩ : Shape).Idx → EReal)
    (row : (⟨2, ![1, 4096]⟩ : Shape).Idx → EReal) (bias : (⟨1, ![4096]⟩ : Shape).Idx → EReal)
    (h : ∀ c : Fin 4096, row (ix2 (0 : Fin 1) c) = bias (ix1 c)) : linearRow a b row = linear a b bias := by
  funext i
  exact congrArg ((∑ k : Fin 4096, a (ix2 (i 0) k) * b (ix2 (i 1) k)) + ·) (h (i 1))

/-- Position `k` of the first half of the contraction axis. -/
abbrev lo (k : Fin 2048) : Fin 4096 := ⟨k.val, by have := k.isLt; omega⟩
/-- Position `k` of the second half of the contraction axis. -/
abbrev hi (k : Fin 2048) : Fin 4096 := ⟨2048 + k.val, by have := k.isLt; omega⟩

/-- A sum over the contraction axis is the sum over its first half plus the sum over its second half, in any
    commutative monoid. -/
theorem sum_halves {M : Type*} [AddCommMonoid M] (f : Fin 4096 → M) :
    ∑ k : Fin 4096, f k = (∑ k : Fin 2048, f (lo k)) + ∑ k : Fin 2048, f (hi k) := by
  have h := Fin.sum_univ_add (M := M) (a := 2048) (b := 2048) (show Fin (2048 + 2048) → M from f)
  exact h

/-- The accumulator's order: zero, plus the first half, plus the second half, is the whole sum. -/
theorem acc_halves (f : Fin 4096 → EReal) :
    ((0 : EReal) + ∑ k : Fin 2048, f (lo k)) + ∑ k : Fin 2048, f (hi k) = ∑ k : Fin 4096, f k := by
  rw [zero_add, sum_halves]

end Cert.Linear

end
-- ==== Proof.BlockValue.lean ====
/-
  One entry of one output block, from the blocks the two grid positions of its contraction axis read.

  Output entry (r, c) sits at (p, q) of its 1024 × 1024 block. The first position reads columns 0 … 2047 of row `r` of
  the left operand and of row `c` of the right operand; the second reads columns 2048 … 4095 of the same two rows, and
  the bias row's entry `c`. The accumulator goes zero → zero plus the first half → that plus the second half, and the
  epilogue adds the bias: by associativity of addition on the extended reals this is the whole sum plus the bias.
-/
import proofs.«121284_j42554535969583_1_alg».proof.Proof.Payloads
import proofs.«121284_j42554535969583_1_alg».proof.Proof.Spec

noncomputable section

namespace Cert.KernelIdeal.BlockValue

open Cert.KernelIdeal Cert.KernelIdeal.Gen Idealize.ShloMosaic Idealize.ShloMosaic.ValueIdx
open Cert.Linear
open scoped BigOperators

/-- The body's values composed over the two positions, at (p, q): zero, plus the first blocks' product, plus the
    second blocks' product, plus the bias row's entry. -/
theorem chain_apply (a0 b0 a1 b1 : Vec Ideal S1024x2048 .bf16) (row : Vec Ideal S1x1024 .f32) (p q : Fin 1024) :
    k0_pay3 (F := Ideal) (k0_pay2 (k0_pay2 k0_pay1 a0 b0) a1 b1) row (ix2 p q)
      = (((0 : EReal) + ∑ k : Fin 2048, a0 (ix2 p k) * b0 (ix2 q k)) + ∑ k : Fin 2048, a1 (ix2 p k) * b1 (ix2 q k))
          + row (ix2 (0 : Fin 1) q) := by
  rw [Payload.bias_apply, Payload.step_apply, Payload.step_apply, Payload.reset_apply]

/-- When the blocks are the arrays `A`, `B`, `R` read where output entry (r, c) says, that value is the affine map of
    `A`, `B`, `R` at (r, c). -/
theorem chain_eq_linearRow (A : (⟨2, ![8192, 4096]⟩ : Shape).Idx → EReal) (B : (⟨2, ![4096, 4096]⟩ : Shape).Idx → EReal)
    (R : (⟨2, ![1, 4096]⟩ : Shape).Idx → EReal)
    (a0 b0 a1 b1 : Vec Ideal S1024x2048 .bf16) (row : Vec Ideal S1x1024 .f32) (p q : Fin 1024) (r : Fin 8192) (c : Fin 4096)
    (ea0 : ∀ k : Fin 2048, a0 (ix2 p k) = A (ix2 r (lo k))) (eb0 : ∀ k : Fin 2048, b0 (ix2 q k) = B (ix2 c (lo k)))
    (ea1 : ∀ k : Fin 2048, a1 (ix2 p k) = A (ix2 r (hi k))) (eb1 : ∀ k : Fin 2048, b1 (ix2 q k) = B (ix2 c (hi k)))
    (er : row (ix2 (0 : Fin 1) q) = R (ix2 (0 : Fin 1) c)) :
    k0_pay3 (F := Ideal) (k0_pay2 (k0_pay2 k0_pay1 a0 b0) a1 b1) row (ix2 p q) = linearRow A B R (ix2 r c) := by
  rw [chain_apply, er]
  simp only [ea0, eb0, ea1, eb1]
  exact congrArg (· + R (ix2 (0 : Fin 1) c)) (acc_halves fun k => A (ix2 r k) * B (ix2 c k))

end Cert.KernelIdeal.BlockValue

end
-- ==== Proof.HostPrefix.lean ====
/-
  What the tiled region finds in the three arrays it reads, as functions of the launch contents, over the extended
  reals. The host code before the region is the quantize-then-dequantize of the input and of the weight, line for line
  the code the other program runs on the host, followed by a change of float format that is the identity on the
  extended reals, and a re-layout of the bias as one row. So the left operand is the other program's dequantized
  input, the right operand its dequantized weight (before that program transposes it), and neither is opened here:
  the two are compared as whole terms.
-/
import proofs.«121284_j42554535969583_1_alg».proof.Proof.Gen.KernelIdeal.Frame
import proofs.«121284_j42554535969583_1_alg».proof.Proof.Gen.ReferenceIdeal.Read
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The left operand as the region finds it: the dequantized input. -/
theorem left_eq (c : Dev nD) :
    (V m c main_v28 : S8192x4096.Idx → EReal)
      = Cert.ReferenceIdeal.Read.val_main_v27 (F := Ideal) (m ((c : Thread nD τ).loc main_arg0)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- The right operand as the region finds it: the dequantized weight, rows indexed by output column. -/
theorem right_eq (c : Dev nD) :
    (V m c main_v33 : S4096x4096.Idx → EReal)
      = Cert.ReferenceIdeal.Read.val_main_v31 (F := Ideal) (m ((c : Thread nD τ).loc main_arg1)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- The bias as the region finds it: the bias vector laid out as one row. -/
theorem bias_eq (c : Dev nD) :
    (V m c main_v34 : S1x4096.Idx → EReal)
      = shapeCast S1x4096 (m ((c : Thread nD τ).loc main_arg2)) shapeCasts_S4096_S1x4096 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

end Cert.KernelIdeal.HostPrefix

end
-- ==== Proof.Tiled.lean ====
/-
  The tiled program's result array, as one function of the arrays its region reads.

  The grid has 8 × 4 × 2 points, point `t` = ((i · 4 + j) · 2 + k): `i` picks 1024 rows of the left operand and of the
  output, `j` picks 1024 rows of the right operand (the output's columns) and 1024 entries of the bias row, `k` picks
  one half (2048 columns) of the contraction axis. The output block (i, j) is written back once, after the point with
  `k = 1`; what it then holds was accumulated over the two points (i, j, 0) and (i, j, 1). Entry (p, q) of that block
  is entry (1024 i + p, 1024 j + q) of the array, and the blocks of the odd points tile the array.
-/
import proofs.«121284_j42554535969583_1_alg».proof.Proof.Gen.KernelIdeal.Value
import proofs.«121284_j42554535969583_1_alg».proof.Proof.Pieces
import proofs.«121284_j42554535969583_1_alg».proof.Proof.BlockValue
import proofs.«121284_j42554535969583_1_alg».proof.Proof.HostPrefix
import Idealize.ShloMosaic.Lib.Pipeline.Value

noncomputable section

namespace Cert.KernelIdeal.Tiled

open Cert.KernelIdeal Cert.KernelIdeal.Gen Idealize.ShloMosaic Idealize.ShloMosaic.TcCoe Idealize.SL.Sem
open Idealize.ShloMosaic.ValueIdx Cert.Linear
open Idealize.ShloMosaic.Pipeline (Dat)

variable (m : (ℓ : Loc nD τ sig) → Buf (Elt Ideal) ℓ) (ρ : Dev nD → PrngReg)

/-- The four windows' block indices at point `t`, in closed form (decided over the 64 points). -/
theorem idx_closed : ∀ t : Fin cfg0.N,
    win0_0.index t (0 : Fin 2) = t.val / 8 ∧ win0_0.index t (1 : Fin 2) = t.val % 2
    ∧ win0_1.index t (0 : Fin 2) = t.val / 2 % 4 ∧ win0_1.index t (1 : Fin 2) = t.val % 2
    ∧ win0_2.index t (0 : Fin 2) = 0 ∧ win0_2.index t (1 : Fin 2) = t.val / 2 % 4
    ∧ win0_3.index t (0 : Fin 2) = t.val / 8 ∧ win0_3.index t (1 : Fin 2) = t.val / 2 % 4 :=
  (by decide +kernel : ∀ t : Fin grid0.N, _)

/-- Two functions on a 1024 × 1024 block that agree at every (p, q) are equal. -/
theorem ext_block {α : Type} {f g : (⟨2, ![1024, 1024]⟩ : Shape).Idx → α}
    (h : ∀ p q : Fin 1024, f (ix2 p q) = g (ix2 p q)) : f = g :=
  funext fun y => by rw [eq_ix2 y]; exact h _ _

/-- The left operand's block at `t`: rows `1024 (t / 8) + p`, columns `2048 (t % 2) + k`. -/
theorem left_blk (c : Dev nD) (t : Fin cfg0.N) (p : Fin 1024) (k : Fin 2048) (r : Fin 8192) (kk : Fin 4096)
    (hr : r.val = t.val / 8 * 1024 + p.val) (hk : kk.val = t.val % 2 * 2048 + k.val) :
    (iblk m c 0 t : Vec Ideal S1024x2048 .bf16) (ix2 p k) = V m c main_v28 (ix2 r kk) := by
  obtain ⟨e0, e1, -⟩ := idx_closed t
  unfold iblk
  show V m c main_v28 (((cfg0.win 0).blk t).view.emb (ix2 p k)) = V m c main_v28 (ix2 r kk)
  refine congrArg (V m c main_v28) (funext fun a => Fin.ext ?_)
  match a with
  | ⟨0, _⟩ => show win0_0.index t (0 : Fin 2) * 1024 + 1 * p.val = r.val; omega
  | ⟨1, _⟩ => show win0_0.index t (1 : Fin 2) * 2048 + 1 * k.val = kk.val; omega

/-- The right operand's block at `t`: rows `1024 (t / 2 % 4) + q`, columns `2048 (t % 2) + k`. -/
theorem right_blk (c : Dev nD) (t : Fin cfg0.N) (q : Fin 1024) (k : Fin 2048) (cc : Fin 4096) (kk : Fin 4096)
    (hc : cc.val = t.val / 2 % 4 * 1024 + q.val) (hk : kk.val = t.val % 2 * 2048 + k.val) :
    (iblk m c 1 t : Vec Ideal S1024x2048 .bf16) (ix2 q k) = V m c main_v33 (ix2 cc kk) := by
  obtain ⟨-, -, e2, e3, -⟩ := idx_closed t
  unfold iblk
  show V m c main_v33 (((cfg0.win 1).blk t).view.emb (ix2 q k)) = V m c main_v33 (ix2 cc kk)
  refine congrArg (V m c main_v33) (funext fun a => Fin.ext ?_)
  match a with
  | ⟨0, _⟩ => show win0_1.index t (0 : Fin 2) * 1024 + 1 * q.val = cc.val; omega
  | ⟨1, _⟩ => show win0_1.index t (1 : Fin 2) * 2048 + 1 * k.val = kk.val; omega

/-- The bias row's block at `t`: entries `1024 (t / 2 % 4) + q` of the one row. -/
theorem bias_blk (c : Dev nD) (t : Fin cfg0.N) (q : Fin 1024) (cc : Fin 4096)
    (hc : cc.val = t.val / 2 % 4 * 1024 + q.val) :
    (iblk m c 2 t : Vec Ideal S1x1024 .f32) (ix2 (0 : Fin 1) q) = V m c main_v34 (ix2 (0 : Fin 1) cc) := by
  obtain ⟨-, -, -, -, e4, e5, -⟩ := idx_closed t
  unfold iblk
  show V m c main_v34 (((cfg0.win 2).blk t).view.emb (ix2 (0 : Fin 1) q)) = V m c main_v34 (ix2 (0 : Fin 1) cc)
  refine congrArg (V m c main_v34) (funext fun a => Fin.ext ?_)
  match a with
  | ⟨0, _⟩ => show win0_2.index t (0 : Fin 2) * 1 + 1 * 0 = 0; omega
  | ⟨1, _⟩ => show win0_2.index t (1 : Fin 2) * 1024 + 1 * q.val = cc.val; omega

/-- Entry (p, q) of the output block at `t` is entry (1024 (t / 8) + p, 1024 (t / 2 % 4) + q) of the array. -/
theorem out_emb (t : Fin cfg0.N) (p q : Fin 1024) (r : Fin 8192) (cc : Fin 4096)
    (hr : r.val = t.val / 8 * 1024 + p.val) (hc : cc.val = t.val / 2 % 4 * 1024 + q.val) :
    ((cfg0.win 3).blk t).view.emb (ix2 p q) = ix2 r cc := by
  obtain ⟨-, -, -, -, -, -, e6, e7⟩ := idx_closed t
  refine funext fun a => Fin.ext ?_
  match a with
  | ⟨0, _⟩ => show win0_3.index t (0 : Fin 2) * 1024 + 1 * p.val = r.val; omega
  | ⟨1, _⟩ => show win0_3.index t (1 : Fin 2) * 1024 + 1 * q.val = cc.val; omega

/-- The result as the region's arrays give it: the affine map of the left operand, the right operand and the bias
    row, each as the region finds it. -/
abbrev result (c : Dev nD) : (⟨2, ![8192, 4096]⟩ : Shape).Idx → EReal :=
  linearRow (V m c main_v28) (V m c main_v33) (V m c main_v34)

/-- After an even point (`k = 0`) the accumulator holds one step from the reset block, over that point's blocks. -/
theorem acc_even (c : Dev nD) (t : Fin cfg0.N) (h0 : t.val % 2 = 0) (h1 : ¬t.val % 2 = 1) :
    (outsAt0 m c t.val t.isLt).2 = k0_pay2 (k0_pay1 (F := Ideal)) (iblk m c 0 t) (iblk m c 1 t) := by
  rw [outsAt0_A m c t h0 h1]
  dsimp only
  exact Pieces.acc_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- What an odd point (`k = 1`) writes back: the epilogue over two steps from the reset block, the first over the
    blocks of the even point before it, the second over its own. -/
theorem flushed_odd (c : Dev nD) (t : Fin cfg0.N) (h0 : ¬t.val % 2 = 0) (h1 : t.val % 2 = 1) (hlt : t.val - 1 < cfg0.N) :
    (dats m 0 c).flushed 3 t = (cfg0.win 3).cut (grid0.coords t)
      (k0_pay3 (F := Ideal) (k0_pay2 (k0_pay2 k0_pay1 (iblk m c 0 ⟨t.val - 1, hlt⟩) (iblk m c 1 ⟨t.val - 1, hlt⟩)) (iblk m c 0 t) (iblk m c 1 t)) (iblk m c 2 t)) := by
  have E3 := acc_even m c ⟨t.val - 1, hlt⟩ (by show (t.val - 1) % 2 = 0; omega) (by show ¬(t.val - 1) % 2 = 1; omega)
  have E2 := Pieces.out_second c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) hlt).2
  rw [Value.flushed3_B m c t h0 h1, E2]
  exact congrArg (fun z => (cfg0.win 3).cut (grid0.coords t) (k0_pay3 (F := Ideal) (k0_pay2 z (iblk m c 0 t) (iblk m c 1 t)) (iblk m c 2 t))) E3

/-- One entry of what an odd point writes back is the result at the entry's place in the array. -/
theorem entry_odd (c : Dev nD) (t : Fin cfg0.N) (h1 : t.val % 2 = 1) (hlt : t.val - 1 < cfg0.N) (p q : Fin 1024)
    (r : Fin 8192) (cc : Fin 4096) (hr : r.val = t.val / 8 * 1024 + p.val) (hc : cc.val = t.val / 2 % 4 * 1024 + q.val) :
    k0_pay3 (F := Ideal) (k0_pay2 (k0_pay2 k0_pay1 (iblk m c 0 ⟨t.val - 1, hlt⟩) (iblk m c 1 ⟨t.val - 1, hlt⟩)) (iblk m c 0 t) (iblk m c 1 t)) (iblk m c 2 t) (ix2 p q)
      = result m c (ix2 r cc) :=
  BlockValue.chain_eq_linearRow (V m c main_v28) (V m c main_v33) (V m c main_v34)
    (iblk m c 0 ⟨t.val - 1, hlt⟩) (iblk m c 1 ⟨t.val - 1, hlt⟩) (iblk m c 0 t) (iblk m c 1 t) (iblk m c 2 t) p q r cc
    (fun k => left_blk m c ⟨t.val - 1, hlt⟩ p k r (lo k) (by show r.val = (t.val - 1) / 8 * 1024 + p.val; omega) (by show k.val = (t.val - 1) % 2 * 2048 + k.val; omega))
    (fun k => right_blk m c ⟨t.val - 1, hlt⟩ q k cc (lo k) (by show cc.val = (t.val - 1) / 2 % 4 * 1024 + q.val; omega) (by show k.val = (t.val - 1) % 2 * 2048 + k.val; omega))
    (fun k => left_blk m c t p k r (hi k) hr (by show 2048 + k.val = t.val % 2 * 2048 + k.val; omega))
    (fun k => right_blk m c t q k cc (hi k) hc (by show 2048 + k.val = t.val % 2 * 2048 + k.val; omega))
    (bias_blk m c t q cc hc)

/-- WHAT A FLUSHING POINT WRITES BACK is its block of `result`: the point is odd (`k = 1`), the accumulator it starts
    from is what the even point before it left, and that point started from the reset block. -/
theorem flushed_eq (c : Dev nD) (t : Fin cfg0.N) (hf : (cfg0.win 3).flush t = true) :
    (dats m 0 c).flushed 3 t = ((cfg0.win 3).blk t).view.read (Elt Ideal) (result m c) := by
  have h1 : t.val % 2 = 1 := (flush0_3 t).mp hf
  have h0 : ¬t.val % 2 = 0 := by omega
  have hN : t.val < 64 := lt_of_lt_of_eq t.isLt (show cfg0.N = 64 from N_0)
  have hlt : t.val - 1 < cfg0.N := Nat.lt_of_le_of_lt (Nat.sub_le _ _) t.isLt
  rw [flushed_odd m c t h0 h1 hlt]
  refine ext_block (fun p q => ?_)
  have hp := p.isLt
  have hq := q.isLt
  show k0_pay3 (F := Ideal) (k0_pay2 (k0_pay2 k0_pay1 (iblk m c 0 ⟨t.val - 1, hlt⟩) (iblk m c 1 ⟨t.val - 1, hlt⟩)) (iblk m c 0 t) (iblk m c 1 t)) (iblk m c 2 t) (ix2 p q)
    = result m c (((cfg0.win 3).blk t).view.emb (ix2 p q))
  rw [out_emb t p q ⟨t.val / 8 * 1024 + p.val, by omega⟩ ⟨t.val / 2 % 4 * 1024 + q.val, by omega⟩ rfl rfl]
  exact entry_odd m c t h1 hlt p q _ _ rfl rfl

/-- An index of the array is in point `t`'s output block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v35).slice (win0_3.rect t)).set ↔ _
  rw [View.set_slice_whole, Rect.mem_set_unit]
  exact Iff.rfl

/-- Every index of the array is in the block of a flushing point: entry (r, c) in the block of the odd point
    ((r / 1024) · 4 + c / 1024) · 2 + 1. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 64 := N_0
  have hlt : ((i 0).val / 1024 * 4 + (i 1).val / 1024) * 2 + 1 < cfg0.N := by rw [hN]; omega
  refine ⟨⟨((i 0).val / 1024 * 4 + (i 1).val / 1024) * 2 + 1, hlt⟩, (flush0_3 _).mpr (by show (((i 0).val / 1024 * 4 + (i 1).val / 1024) * 2 + 1) % 2 = 1; omega), ?_⟩
  rw [mem_blk]
  obtain ⟨-, -, -, -, -, -, e6, e7⟩ := idx_closed ⟨((i 0).val / 1024 * 4 + (i 1).val / 1024) * 2 + 1, hlt⟩
  have e6' : win0_3.index ⟨((i 0).val / 1024 * 4 + (i 1).val / 1024) * 2 + 1, hlt⟩ (0 : Fin 2) = (((i 0).val / 1024 * 4 + (i 1).val / 1024) * 2 + 1) / 8 := e6
  have e7' : win0_3.index ⟨((i 0).val / 1024 * 4 + (i 1).val / 1024) * 2 + 1, hlt⟩ (1 : Fin 2) = (((i 0).val / 1024 * 4 + (i 1).val / 1024) * 2 + 1) / 2 % 4 := e7
  intro a
  match a with
  | ⟨0, _⟩ =>
    show win0_3.index ⟨((i 0).val / 1024 * 4 + (i 1).val / 1024) * 2 + 1, hlt⟩ (0 : Fin 2) * 1024 ≤ (i 0).val ∧ (i 0).val < win0_3.index ⟨((i 0).val / 1024 * 4 + (i 1).val / 1024) * 2 + 1, hlt⟩ (0 : Fin 2) * 1024 + 1024
    rw [e6']; omega
  | ⟨1, _⟩ =>
    show win0_3.index ⟨((i 0).val / 1024 * 4 + (i 1).val / 1024) * 2 + 1, hlt⟩ (1 : Fin 2) * 1024 ≤ (i 1).val ∧ (i 1).val < win0_3.index ⟨((i 0).val / 1024 * 4 + (i 1).val / 1024) * 2 + 1, hlt⟩ (1 : Fin 2) * 1024 + 1024
    rw [e7']; omega

/-- THE ARRAY after the run: the affine map of the dequantized input, the dequantized weight and the bias. -/
theorem final (c : Dev nD) : (dats m 0 c).arrAt 3 cfg0.N
    = linear (Cert.ReferenceIdeal.Read.val_main_v27 (F := Ideal) (m ((c : Thread nD τ).loc main_arg0)))
        (Cert.ReferenceIdeal.Read.val_main_v31 (F := Ideal) (m ((c : Thread nD τ).loc main_arg1)))
        (m ((c : Thread nD τ).loc main_arg2)) := by
  rw [(dats m 0 c).arrAt_eq_of_cover 3 (result m c) (flushed_eq m c) cover]
  show linearRow (V m c main_v28) (V m c main_v33) (V m c main_v34) = _
  rw [HostPrefix.left_eq, HostPrefix.right_eq, HostPrefix.bias_eq]
  refine linearRow_eq _ _ _ _ (fun cc => ?_)
  refine shapeCast_apply (m ((c : Thread nD τ).loc main_arg2)) shapeCasts_S4096_S1x4096 (ix2 (0 : Fin 1) cc) (ix1 cc) ?_
  show (S4096.rowMajor (ix1 cc)).val = (S1x4096.rowMajor (ix2 (0 : Fin 1) cc)).val
  rw [Shape.rowMajor_val_one, Shape.rowMajor_val_two]
  show cc.val = 0 * 4096 + cc.val
  omega

/-- The run, read: the result array at that function of the launch contents, the arguments unchanged. -/
theorem run : θ_run defs (onTc (τ := τ) (main (F := Ideal))) ⟨m, fun _ => 0, ρ⟩ fun r => ∀ c : Dev nD,
      r.2.mem ((c : Thread nD τ).loc main_v35)
        = linear (Cert.ReferenceIdeal.Read.val_main_v27 (F := Ideal) (m ((c : Thread nD τ).loc main_arg0)))
            (Cert.ReferenceIdeal.Read.val_main_v31 (F := Ideal) (m ((c : Thread nD τ).loc main_arg1)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Tiled

end
-- ==== Proof.RefLinear.lean ====
/-
  The host program's result, read at an index, is the affine map of its own dequantized operands: its matrix product
  contracts the dequantized input's second axis against the first axis of the TRANSPOSED dequantized weight, so the
  factor at (k, c) of the transpose is the weight's entry (c, k); its bias is broadcast along the rows.
-/
import proofs.«121284_j42554535969583_1_alg».proof.Proof.Gen.ReferenceIdeal.Read
import proofs.«121284_j42554535969583_1_alg».proof.Proof.Spec

noncomputable section

namespace Cert.ReferenceIdeal.RefLinear

open Cert.ReferenceIdeal Cert.ReferenceIdeal.Read Idealize.ShloMosaic Idealize.ShloMosaic.ValueIdx
open scoped BigOperators

theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v36 (F := Ideal) x0 x1 x2
      = Cert.Linear.linear (val_main_v27 (F := Ideal) x0) (val_main_v31 (F := Ideal) x1) x2 := by
  funext i
  have el : ∀ k : Fin 4096, lidx_main_v33 i k = ix2 (i 0) k := fun k => funext fun a => Fin.ext (by
    match a with
    | ⟨0, _⟩ => rfl
    | ⟨1, _⟩ => rfl)
  have er : ∀ k : Fin 4096, idx_main_v32 (ridx_main_v33 i k) = ix2 (i 1) k := fun k => funext fun a => Fin.ext (by
    match a with
    | ⟨0, _⟩ => rfl
    | ⟨1, _⟩ => rfl)
  have eb : idx_main_v34 (idx_main_v35 i) = ix1 (i 1) := funext fun a => Fin.ext (by
    match a with
    | ⟨0, _⟩ => rfl)
  rw [val_main_v36_apply, val_main_v33_apply, val_main_v35_apply, val_main_v34_apply, eb]
  simp only [val_main_v32_apply, el, er]
  rfl

end Cert.ReferenceIdeal.RefLinear

end
-- ==== Proof.lean ====
/-
  Both programs quantize the input and the weight block by block and dequantize them again, with the same host code,
  and then apply the dequantized weight to the dequantized input and add the bias:

      out[r, c] = (∑ k < 4096, xd[r, k] · wd[c, k]) + bias[c].

  The host program does this with one matrix product against the transposed weight and a broadcast of the bias. The
  tiled program changes the operands' float format (the identity on the extended reals), cuts the output into
  1024 × 1024 blocks and the contraction axis into two halves, accumulates the two half products into a block it first
  sets to zero, and adds the bias row at the second half. Over the extended reals addition is associative and zero is
  neutral, so the accumulated value is the whole sum; no finiteness of the entries is used, and the quantization code,
  common to both programs, is never opened. The idealization rewrote nothing, so there is nothing to preserve.

  The modules: Spec (the affine map and the two-halves law), Payloads (the body's three stored values at an index),
  Pieces (what one run of the body leaves in the accumulator and in the output block), BlockValue (one output entry
  from the two positions' blocks), HostPrefix (the region's operands are the host program's dequantized operands),
  Tiled (blocks to array, and the run), RefLinear (the host program's result is the affine map).
-/
import proofs.«121284_j42554535969583_1_alg».proof.Defs
import proofs.«121284_j42554535969583_1_alg».proof.Proof.Gen.Kernel
import proofs.«121284_j42554535969583_1_alg».proof.Proof.Gen.Kernel.Frame
import proofs.«121284_j42554535969583_1_alg».proof.Proof.Gen.KernelIdeal
import proofs.«121284_j42554535969583_1_alg».proof.Proof.Gen.KernelIdeal.Frame
import proofs.«121284_j42554535969583_1_alg».proof.Proof.Gen.KernelIdeal.Value
import proofs.«121284_j42554535969583_1_alg».proof.Proof.Gen.ReferenceIdeal
import proofs.«121284_j42554535969583_1_alg».proof.Proof.Gen.ReferenceIdeal.Run
import proofs.«121284_j42554535969583_1_alg».proof.Proof.Gen.ReferenceIdeal.Read
import proofs.«121284_j42554535969583_1_alg».proof.Proof.Gen.Pre_finite_inputs
import proofs.«121284_j42554535969583_1_alg».proof.Proof.Tiled
import proofs.«121284_j42554535969583_1_alg».proof.Proof.RefLinear
import Idealize.ShloMosaic.Adequacy
import Idealize.ShloMosaic.Init

noncomputable section

namespace Cert.Proof

open Idealize.ShloMosaic Idealize.SL.Sem

/-- The word-level program runs and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The host program's run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- From memories that agree on the arguments both programs end with the affine map of the dequantized input, the
    dequantized weight and the bias in their result arrays. -/
theorem algebraic : Cert.algebraic_KernelIdeal_ReferenceIdeal := by
  intro m ρ m' ρ' _ hagree
  refine ⟨_, Cert.KernelIdeal.Tiled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefLinear.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
